-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel

variable [Facts]

def fn {F : FTy → Type} [FloatOps F] (main_arg0 : FVec F S256x1024 .f32) (main_arg1 : IVec S256x1024 32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  main_v3
-- ==== Kernel.lean ====
abbrev S256x1024 : Shape := ⟨2, ![256, 1024]⟩
abbrev S1x1 : Shape := ⟨2, ![1, 1]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .i32⟩
  | .hbm, ⟨2, _⟩ => ⟨S1x1, .f32⟩
  | .hbm, ⟨3, _⟩ => ⟨S_, .f32⟩
  | .local _ .vmem, ⟨0, _⟩ => ⟨S256x1024, .f32⟩
  | .local _ .vmem, ⟨1, _⟩ => ⟨S256x1024, .i32⟩
  | .local _ .vmem, ⟨2, _⟩ => ⟨S1x1, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S256x1024_S256x1024_0_0 : ∀ a, (![0, 0] : Fin 2 → Nat) a + S256x1024.size a ≤ S256x1024.size a
  h_S256x1024 : 0 < S256x1024.numel
  natLt_1_32 : 1 < 32
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .i32 = 32 ∨ (Rect.block (s := S256x1024) S256x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x1024 : Shape := ⟨2, ![256, 1024]⟩
abbrev S_ : Shape := ⟨0, ![]⟩
abbrev S256x1024x1 : Shape := ⟨3, ![256, 1024, 1]⟩
abbrev S256x1x1024 : Shape := ⟨3, ![256, 1, 1024]⟩
abbrev S256x1024x1024 : Shape := ⟨3, ![256, 1024, 1024]⟩
abbrev S256 : Shape := ⟨1, ![256]⟩

abbrev nBuf : Space → Nat
  | .hbm => 44
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .i32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .i32⟩
  | .hbm, ⟨11, _⟩ => ⟨S256x1024, .i32⟩
  | .hbm, ⟨12, _⟩ => ⟨S256x1024, .i1⟩
  | .hbm, ⟨13, _⟩ => ⟨S256x1024, .i1⟩
  | .hbm, ⟨14, _⟩ => ⟨S256x1024x1, .f32⟩
  | .hbm, ⟨15, _⟩ => ⟨S256x1x1024, .f32⟩
  | .hbm, ⟨16, _⟩ => ⟨S256x1024x1024, .f32⟩
  | .hbm, ⟨17, _⟩ => ⟨S256x1024x1024, .f32⟩
  | .hbm, ⟨18, _⟩ => ⟨S256x1024x1024, .f32⟩
  | .hbm, ⟨19, _⟩ => ⟨S_, .f32⟩
  | .hbm, ⟨20, _⟩ => ⟨S256x1024x1024, .f32⟩
  | .hbm, ⟨21, _⟩ => ⟨S256x1024x1024, .f32⟩
  | .hbm, ⟨22, _⟩ => ⟨S_, .f32⟩
  | .hbm, ⟨23, _⟩ => ⟨S256x1024x1024, .f32⟩
  | .hbm, ⟨24, _⟩ => ⟨S256x1024x1024, .f32⟩
  | .hbm, ⟨25, _⟩ => ⟨S256x1024x1, .i1⟩
  | .hbm, ⟨26, _⟩ => ⟨S256x1x1024, .i1⟩
  | .hbm, ⟨27, _⟩ => ⟨S256x1024x1024, .i1⟩
  | .hbm, ⟨28, _⟩ => ⟨S256x1024x1024, .i1⟩
  | .hbm, ⟨29, _⟩ => ⟨S256x1024x1024, .i1⟩
  | .hbm, ⟨30, _⟩ => ⟨S256x1024x1024, .f32⟩
  | .hbm, ⟨31, _⟩ => ⟨S256x1024x1024, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  bcast_S256x1024_S256x1x1024_0_2 : S256x1024.BroadcastsInDim S256x1x1024 (![0, 2] : Fin 2 → Fin S256x1x1024.rank)
  bcast_S256x1024x1_S256x1024x1024_0_1_2 : S256x1024x1.BroadcastsInDim S256x1024x1024 (![0, 1, 2] : Fin 3 → Fin S256x1024x1024.rank)
  bcast_S256x1x1024_S256x1024x1024_0_1_2 : S256x1x1024.BroadcastsInDim S256x1024x1024 (![0, 1, 2] : Fin 3 → Fin S256x1024x1024.rank)
  bcast_S_S256x1024x1024 : S_.BroadcastsInDim S256x1024x1024 (![] : Fin 0 → Fin S256x1024x1024.rank)
  reducesTo_S256x1024x1024_S256_d1_2 : S256x1024x1024.ReducesTo [1, 2] S256
  h_S_ : 0 < S_.numel
  bcast_S_S256 : S_.BroadcastsInDim S256 (![] : Fin 0 → Fin S256.rank)
  reducesTo_S256_S_d0 : S256.ReducesTo [0] S_

variable [Facts₀]

class Facts : Prop extends Facts₀ where

variable [Facts]
-- ==== Proof.LibHingePairs.lean ====
/-
  A pairwise ranking hinge summed over the (positive, negative) pairs of one row, as four row statistics.

  For scores `p l` in `[0, 1]` and 0/1 weights `a l` (1 on a positive), the margin-one hinge of the pair
  `(l, n)` is `max 0 (1 - (p l - p n))`; because `p l - p n ≤ 1` it never clips, so it IS `1 - p l + p n`,
  and the sum over all pairs weighted by `a l * (1 - a n)` separates into products of single sums:

      ∑ l, ∑ n, max 0 (1 - (p l - p n)) * (a l * (1 - a n))
        = (∑ a) * (∑ (1 - a)) * 1 - (∑ (1 - a)) * (∑ p * a) + (∑ a) * (∑ p * (1 - a)).

  The number of pairs, `∑ l, ∑ n, a l * (1 - a n)`, is `(∑ a) * (∑ (1 - a))` by the same separation.
  Beside the two real identities: the coercion of reals into the extended reals commutes with finite sums and
  with `max`, the extended quotient of two reals by a nonzero divisor is the real quotient, the words of the
  f32 constants `1.0` and `0.0`, and a one-bit word read as a number (zero-extended and read signed; the
  conjunction of one with the complement of another).
-/
import Idealize.ShloMosaic.PureOps.Ideal
import Idealize.ShloMosaic.PureOps.Ideal.Laws
import Idealize.ShloMosaic.Lib.ValueIdx

noncomputable section

namespace Cert.HingePairs

open Idealize.ShloMosaic
open scoped BigOperators

/-! ## The two identities over the reals -/

/-- The pair count separates: `∑ l, ∑ n, a l * (1 - a n) = (∑ a) * (∑ (1 - a))`. -/
theorem pair_count {ι : Type*} [Fintype ι] (a : ι → ℝ) :
    ∑ l, ∑ n, a l * (1 - a n) = (∑ l, a l) * ∑ n, (1 - a n) :=
  (Finset.sum_mul_sum _ _ _ _).symm

/-- The hinge never clips on scores in `[0, 1]`, and the weighted pair sum separates into row statistics. -/
theorem pair_hinge {ι : Type*} [Fintype ι] (p a : ι → ℝ) (hp0 : ∀ i, 0 ≤ p i) (hp1 : ∀ i, p i ≤ 1) :
    ∑ l, ∑ n, max 0 (1 - (p l - p n)) * (a l * (1 - a n))
      = (∑ l, a l) * (∑ n, (1 - a n)) * 1 - (∑ n, (1 - a n)) * (∑ l, p l * a l)
        + (∑ l, a l) * (∑ n, p n * (1 - a n)) := by
  have h : ∀ l n, max 0 (1 - (p l - p n)) = 1 - (p l - p n) := fun l n =>
    max_eq_right (by linarith [hp0 n, hp1 l])
  simp only [h, mul_one]
  rw [Finset.sum_mul_sum, Finset.sum_mul_sum, Finset.sum_mul_sum,
    Finset.sum_comm (f := fun n l => (1 - a n) * (p l * a l))]
  simp only [← Finset.sum_sub_distrib, ← Finset.sum_add_distrib]
  exact Finset.sum_congr rfl fun l _ => Finset.sum_congr rfl fun n _ => by ring

/-! ## Reals inside the extended reals -/

/-- The coercion commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with `max`. -/
theorem coe_max (x y : ℝ) : ((max x y : ℝ) : EReal) = max (x : EReal) (y : EReal) :=
  (EReal.coe_strictMono.monotone).map_max

/-- The extended quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul, one_div, div_eq_mul_inv]

/-- The f32 word of `1.0` is the real one. -/
theorem ofBits_one : Ideal.ofBits .f32 0x3F800000#32 = ((1 : ℝ) : EReal) := by
  simp [Ideal.ofBits, Ideal.ieee, -EReal.coe_mul]; norm_num

/-- The f32 word of `0.0` is the real zero. -/
theorem ofBits_zero : Ideal.ofBits .f32 0x00000000#32 = ((0 : ℝ) : EReal) := by
  rw [Ideal.ofBits_zero_f32, EReal.coe_zero]

/-! ## A one-bit word as a number -/

theorem bv1_cases (c : BitVec 1) : c = 0#1 ∨ c = 1#1 := by
  by_cases h : c = 1#1
  · exact Or.inr h
  · exact Or.inl (ValueIdx.eq_zero_of_ne_one h)

/-- A one-bit word is 0 or 1 as a number. -/
theorem toNat_bv1_cases (c : BitVec 1) : (c.toNat : ℝ) = 0 ∨ (c.toNat : ℝ) = 1 := by
  rcases bv1_cases c with rfl | rfl
  · left; simp
  · right; simp

/-- Zero-extended to 32 bits and read signed, a one-bit word is its own number. -/
theorem toInt_setWidth_bv1 (c : BitVec 1) : (((c.setWidth 32).toInt : ℤ) : ℝ) = (c.toNat : ℝ) := by
  rcases bv1_cases c with rfl | rfl <;> simp

/-- The conjunction of a one-bit word with the complement of another is the product `c * (1 - d)`. -/
theorem toNat_and_not_bv1 (c d : BitVec 1) :
    ((IntOp.andi c (~~~d)).toNat : ℝ) = (c.toNat : ℝ) * (1 - (d.toNat : ℝ)) := by
  rcases bv1_cases c with rfl | rfl <;> rcases bv1_cases d with rfl | rfl <;> simp [IntOp.andi]

end Cert.HingePairs

end
-- ==== Proof.Spec.lean ====
/-
  The loss both programs compute, in the arrangement each computes it in, on the extended reals.
-/
import proofs.«113133_j32418413150578_2_alg».proof.Proof.LibHingePairs
import Idealize.ShloMosaic.Lib.ValueIdx

noncomputable section

namespace Cert.HingeSpec

open Idealize.ShloMosaic Idealize.ShloMosaic.ValueIdx
open scoped BigOperators

/-- The shape of both arguments: 256 rows of 1024 entries. -/
abbrev Sx : Shape := ⟨2, ![256, 1024]⟩

/-- The f32 constant 1.0. -/
def one : EReal := Ideal.ofBits .f32 0x3F800000#32
/-- The f32 constant 0.0. -/
def zero : EReal := Ideal.ofBits .f32 0x00000000#32

/-- Entry `(b, l)`'s score: the logistic function of its logit. -/
def score (x : Sx.Idx → EReal) (b : Fin 256) (l : Fin 1024) : EReal := Ideal.logistic (x (ix2 b l))
/-- Entry `(b, l)`'s label bit: 1 when the target is positive. -/
def lab (tg : Sx.Idx → BitVec 32) (b : Fin 256) (l : Fin 1024) : BitVec 1 := IntOp.cmpi .sgt (tg (ix2 b l)) 0#32
/-- The label bit as a float, the way the kernel converts it: widened to 32 bits and read signed. -/
def pos (tg : Sx.Idx → BitVec 32) (b : Fin 256) (l : Fin 1024) : EReal := ((((lab tg b l).setWidth 32).toInt : ℝ) : EReal)

/-! ## The kernel's arrangement: four sums per row -/

def nPos (tg : Sx.Idx → BitVec 32) (b : Fin 256) : EReal := ∑ l : Fin 1024, pos tg b l
def nNeg (tg : Sx.Idx → BitVec 32) (b : Fin 256) : EReal := ∑ l : Fin 1024, (one - pos tg b l)
def sPos (x : Sx.Idx → EReal) (tg : Sx.Idx → BitVec 32) (b : Fin 256) : EReal := ∑ l : Fin 1024, score x b l * pos tg b l
def sNeg (x : Sx.Idx → EReal) (tg : Sx.Idx → BitVec 32) (b : Fin 256) : EReal :=
  ∑ l : Fin 1024, score x b l * (one - pos tg b l)
/-- Row `b`'s mean hinge over its pairs, from the four sums. -/
def rowK (x : Sx.Idx → EReal) (tg : Sx.Idx → BitVec 32) (b : Fin 256) : EReal :=
  Ideal.div (nPos tg b * nNeg tg b * one - nNeg tg b * sPos x tg b + nPos tg b * sNeg x tg b)
    (max (nPos tg b * nNeg tg b) one)
/-- The batch mean of the rows' values. -/
def lossK (x : Sx.Idx → EReal) (tg : Sx.Idx → BitVec 32) : EReal :=
  Ideal.div (∑ b : Fin 256, rowK x tg b) (Ideal.ofBits .f32 0x43800000#32)

/-! ## The reference's arrangement: a sum over all pairs of a row -/

/-- The score as the reference spells it: `1 / (1 + e^(-x))` with the f32 constant 1.0. -/
def scoreR (x : Sx.Idx → EReal) (b : Fin 256) (l : Fin 1024) : EReal := Ideal.div one (one + Ideal.exp (-(x (ix2 b l))))
/-- The pair `(l, n)` of row `b` counts when `l` is positive and `n` is not: the conjunction bit, read unsigned. -/
def pairMask (tg : Sx.Idx → BitVec 32) (b : Fin 256) (l n : Fin 1024) : EReal :=
  (((IntOp.andi (lab tg b l) (~~~(lab tg b n))).toNat : ℝ) : EReal)
/-- The margin-one hinge of the pair `(l, n)`. -/
def hinge (x : Sx.Idx → EReal) (b : Fin 256) (l n : Fin 1024) : EReal :=
  max zero (one - (scoreR x b l - scoreR x b n))
/-- Row `b`'s mean hinge over its counted pairs. -/
def rowR (x : Sx.Idx → EReal) (tg : Sx.Idx → BitVec 32) (b : Fin 256) : EReal :=
  Ideal.div (zero + ∑ l : Fin 1024, ∑ n : Fin 1024, hinge x b l n * pairMask tg b l n)
    (max (zero + ∑ l : Fin 1024, ∑ n : Fin 1024, pairMask tg b l n) one)
/-- The batch mean of the rows' values. -/
def lossR (x : Sx.Idx → EReal) (tg : Sx.Idx → BitVec 32) : EReal :=
  Ideal.div (zero + ∑ b : Fin 256, rowR x tg b) (Ideal.ofBits .f32 0x43800000#32)

end Cert.HingeSpec

end
-- ==== Proof.KernelValue.lean ====
/-
  The kernel body's stored value, read at its one index.

  The body loads the whole [256, 1024] logits and targets, forms the scores and the 0/1 label weights entry by entry, takes
  four lane sums per row (each kept as a [256, 1] column), combines them row by row, sums the 256 rows into a [1, 1] vector and
  divides by 256. A lane sum kept as a column, read at row `b`, is the sum of row `b`; the sum of a column kept as a
  [1, 1] vector, read at its index, is the sum of the column. With these two readings the stored value is, term for term,
  the four-sums arrangement of the loss (Spec).
-/
import proofs.«113133_j32418413150578_2_alg».proof.Proof.Gen.KernelIdeal.Frame
import proofs.«113133_j32418413150578_2_alg».proof.Proof.LibHingePairs
import proofs.«113133_j32418413150578_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-- A lane sum over the columns of a [256, 1024] vector, kept as a [256, 1] column, read at row `b`: the sum of
    row `b`. -/
theorem rowsum_apply (v : FVec Ideal S256x1024 .f32) (h : S256x1024.Reduces [1] S256) (hφ : FKind.Formats .f32)
    (hacc : (0x00000000#32 : BitVec 32) = 0x00000000#32) (hc : S256.ShapeCasts S256x1) (b : Fin 256) :
    shapeCast S256x1 (multiReduction .add [1] S256 v 0x00000000#32 h hφ hacc) hc (ix2 b (0 : Fin 1))
      = ∑ l : Fin 1024, v (ix2 b l) := by
  rw [shapeCast_apply _ hc (ix2 b (0 : Fin 1)) (ix1 b) (by
    rw [Shape.rowMajor_val_two, Shape.rowMajor_val_one]
    show b.val = b.val * 1 + 0
    omega)]
  refine (Ideal.multiReduction_add_single v 0x00000000#32 h hφ hacc (ix1 b)).trans ?_
  refine Finset.sum_congr rfl fun k _ => congrArg v (funext fun a => Fin.ext ?_)
  match a with
  | ⟨0, _⟩ => rfl
  | ⟨1, _⟩ => rfl

/-- A sum over the rows of a [256, 1] column, kept as a [1, 1] vector, read at its one index: the sum of the column. -/
theorem colsum_apply (v : FVec Ideal S256x1 .f32) (h : S256x1.Reduces [0] S1) (hφ : FKind.Formats .f32)
    (hacc : (0x00000000#32 : BitVec 32) = 0x00000000#32) (hc : S1.ShapeCasts S1x1) :
    shapeCast S1x1 (multiReduction .add [0] S1 v 0x00000000#32 h hφ hacc) hc (ix2 (0 : Fin 1) (0 : Fin 1))
      = ∑ b : Fin 256, v (ix2 b (0 : Fin 1)) := by
  rw [shapeCast_a_1a_apply]
  refine (Ideal.multiReduction_add_single v 0x00000000#32 h hφ hacc (ix1 (0 : Fin 1))).trans ?_
  refine Finset.sum_congr rfl fun k _ => congrArg v (funext fun a => Fin.ext ?_)
  match a with
  | ⟨0, _⟩ => rfl
  | ⟨1, _⟩ => rfl

/-- The body's stored value at its one index is the loss in the four-sums arrangement. -/
theorem pay_apply (x0 : Vec Ideal S256x1024 .f32) (x1 : Vec Ideal S256x1024 .i32) :
    k0_pay1 (F := Ideal) x0 x1 (ix2 (0 : Fin 1) (0 : Fin 1)) = Cert.HingeSpec.lossK x0 x1 := by
  unfold k0_pay1
  dsimp only
  rw [divf_apply, colsum_apply]
  unfold Cert.HingeSpec.lossK
  refine congrArg₂ Ideal.div (Finset.sum_congr rfl fun b _ => ?_) rfl
  simp only [divf_apply, addf_apply, subf_apply, mulf_apply, maximumf_apply, broadcast_apply]
  rw [rowsum_apply, rowsum_apply, rowsum_apply, rowsum_apply]
  unfold Cert.HingeSpec.rowK Cert.HingeSpec.nPos Cert.HingeSpec.nNeg Cert.HingeSpec.sPos Cert.HingeSpec.sNeg
  rfl

end Cert.KernelIdeal.PayValue

end
-- ==== Proof.KernelRun.lean ====
/-
  The kernel's run, read.

  The grid has one point, and every window's block there is its whole array: the two input blocks are the argument arrays,
  and the one write-back covers the [1, 1] result array, which therefore ends holding the loss of the arguments. The host
  line after the region reshapes that array to a scalar, the same number at the scalar's one index.
-/
import proofs.«113133_j32418413150578_2_alg».proof.Proof.KernelValue
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

theorem hz : (![0, 0] : Fin 2 → Nat) = fun _ => 0 := funext fun a => by fin_cases a <;> rfl

/-- The loss of core `c`'s argument arrays. -/
def loss (c : Dev nD) : EReal :=
  Cert.HingeSpec.lossK (m ((c : Thread nD τ).loc main_arg0)) (m ((c : Thread nD τ).loc main_arg1))

/-- The [1, 1] array the region leaves: the loss at its one index. -/
def result (c : Dev nD) : S1x1.Idx → Elt Ideal .f32 := fun _ => loss m c

/-- Every window's block index is (0, 0) at the one grid point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The one grid point's block of the logits is the whole array. -/
theorem iblk0_eq (c : Dev nD) (t : Fin cfg0.N) :
    (iblk m c 0 t : S256x1024.Idx → Elt Ideal .f32) = m ((c : Thread nD τ).loc main_arg0) := by
  obtain ⟨e0, e1, -, -, -, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 256 + 1 * (y 0).val = (y 0).val; omega
  | ⟨1, _⟩ => show win0_0.index t (1 : Fin 2) * 1024 + 1 * (y 1).val = (y 1).val; omega

/-- And its block of the targets is the whole array. -/
theorem iblk1_eq (c : Dev nD) (t : Fin cfg0.N) :
    (iblk m c 1 t : S256x1024.Idx → Elt Ideal .i32) = m ((c : Thread nD τ).loc main_arg1) := by
  obtain ⟨-, -, e0, e1, -, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega

/-- The stored [1, 1] vector is the loss at every index (there is one). -/
theorem pay_const (x0 : Vec Ideal S256x1024 .f32) (x1 : Vec Ideal S256x1024 .i32) (j : S1x1.Idx) :
    k0_pay1 (F := Ideal) x0 x1 j = Cert.HingeSpec.lossK x0 x1 := by
  have hj : j = ix2 (0 : Fin 1) (0 : Fin 1) := funext fun a => Fin.ext (by
    match a with
    | ⟨0, _⟩ => have h : (j 0).val < 1 := (j 0).isLt; show (j 0).val = 0; omega
    | ⟨1, _⟩ => have h : (j 1).val < 1 := (j 1).isLt; show (j 1).val = 0; omega)
  rw [hj]
  exact Cert.KernelIdeal.PayValue.pay_apply x0 x1

/-- What the one grid point writes back is the loss, read through its block. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero hz]
  simp only [View.ld_unit_zero (S := S256x1024) hz]
  funext j
  show k0_pay1 (F := Ideal) (iblk m c 0 t) (iblk m c 1 t) j = loss m c
  rw [pay_const]
  unfold loss
  exact congrArg₂ Cert.HingeSpec.lossK (iblk0_eq m c t) (iblk1_eq m c t)

/-- So the [1, 1] array ends holding the loss: the one point's block covers it. -/
theorem final (c : Dev nD) : (dats m 0 c).arrAt 2 cfg0.N = result m c :=
  (dats m 0 c).arrAt_eq_of_cover 2 (result m c) (fun t _ => flushed_eq m c t) fun i =>
    ⟨t0_0, flush0_2 t0_0, by
      show i ∈ ((View.whole main_v0).slice (win0_2.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1 from by decide +kernel]; omega⟩

/-- The host line after the region reshapes the [1, 1] array to a scalar: the loss again. -/
theorem tail_eq (c : Dev nD) :
    Pipeline.afterTail₀ cfgs (dats m) 0 (V0 m) [hostOps1] c main_v1 = (fun _ => loss m c : S_.Idx → Elt Ideal .f32) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = result m c :=
    (Pipeline.withArrays_arr spec0 launch0.win.arr_inj c _ _ 2).trans (final m c)
  funext i
  rw [hw]
  rfl

/-- The kernel's run, read: every weakly fair execution ends with the scalar result at the loss of the argument arrays,
    the arguments unchanged. -/
theorem run : θ_run defs (onTc (τ := τ) (main (F := Ideal))) ⟨m, fun _ => 0, ρ⟩ fun r => ∀ c : Dev nD,
      r.2.mem ((c.tc : Thread nD τ).loc main_v1) = (fun _ => loss m c : S_.Idx → Elt Ideal .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Hand

end
-- ==== Proof.RefValue.lean ====
/-
  The reference's run, read.

  The reference broadcasts the scores and the label bits of a row along two axes of a [256, 1024, 1024] tensor, so that entry
  `(b, l, n)` holds the pair `(l, n)` of row `b`: its hinge, its mask bit (positive `l`, non-positive `n`) and their
  product. Two sums over the last two axes give each row's pair sum and pair count; their quotient (the count raised to at
  least 1) is the row's value, and the sum over the rows divided by 256 is the result. A sum over the last two axes at row
  `b` is the double sum over `l` and `n` of the entries `(b, l, n)`; each broadcast read at such a triple is the
  operand at `(b, l)` or at `(b, n)`. Read this way the result is the all-pairs arrangement of the loss (Spec).
-/
import proofs.«113133_j32418413150578_2_alg».proof.Proof.Gen.ReferenceIdeal.Read
import proofs.«113133_j32418413150578_2_alg».proof.Proof.Spec
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx
open Cert.HingeSpec (one zero scoreR pairMask hinge rowR lossR lab)

/-! ## A sum over the two pair axes of a [256, 1024, 1024] tensor -/

/-- The indices of a [256, 1024, 1024] tensor that reduce, over its last two axes, to row `b` are the triples
    `(b, l, n)`: the sum over them is the double sum over `l` and `n`. -/
theorem sum_filter_drop_pairs (h : S256x1024x1024.ReducesTo [1, 2] S256) (f : S256x1024x1024.Idx → EReal) (b : Fin 256) :
    ∑ i ∈ Finset.univ.filter (fun i => h.drop i = ix1 b), f i = ∑ l : Fin 1024, ∑ n : Fin 1024, f (ix3 b l n) := by
  have hd : ∀ i : S256x1024x1024.Idx, (h.drop i 0 : Nat) = (i 0 : Nat) := fun i => h.drop_apply_val_of_eq i 0 0
  have hback : ∀ i : S256x1024x1024.Idx, h.drop i = ix1 b →
      ix3 b (⟨(i 1).val, (i 1).isLt⟩ : Fin 1024) (⟨(i 2).val, (i 2).isLt⟩ : Fin 1024) = i := fun i hi => by
    have h0 : (i 0 : Nat) = b.val := by rw [← hd i, hi]
    funext a
    match a with
    | ⟨0, _⟩ => exact Fin.ext h0.symm
    | ⟨1, _⟩ => rfl
    | ⟨2, _⟩ => rfl
  rw [← Finset.sum_product']
  refine Finset.sum_nbij' (fun i => ((⟨(i 1).val, (i 1).isLt⟩ : Fin 1024), (⟨(i 2).val, (i 2).isLt⟩ : Fin 1024)))
    (fun p => ix3 b p.1 p.2) ?_ ?_ ?_ ?_ ?_
  · intro i _; exact Finset.mem_product.2 ⟨Finset.mem_univ _, Finset.mem_univ _⟩
  · intro p _
    refine Finset.mem_filter.2 ⟨Finset.mem_univ _, funext fun a => ?_⟩
    match a with
    | ⟨0, _⟩ => exact Fin.ext (hd (ix3 b p.1 p.2))
  · intro i hi; exact hback i (Finset.mem_filter.1 hi).2
  · intro p _; rfl
  · intro i hi; exact congrArg f (hback i (Finset.mem_filter.1 hi).2).symm

/-! ## The broadcasts' index maps on a triple -/

theorem idx_v9_v11 (b : Fin 256) (l n : Fin 1024) : idx_main_v9 (idx_main_v11 (ix3 b l n)) = ix2 b l :=
  funext fun a => Fin.ext (by match a with | ⟨0, _⟩ => rfl | ⟨1, _⟩ => rfl)
theorem idx_v10_v12 (b : Fin 256) (l n : Fin 1024) : idx_main_v10 (idx_main_v12 (ix3 b l n)) = ix2 b n :=
  funext fun a => Fin.ext (by match a with | ⟨0, _⟩ => rfl | ⟨1, _⟩ => rfl)
theorem idx_v18_v20 (b : Fin 256) (l n : Fin 1024) : idx_main_v18 (idx_main_v20 (ix3 b l n)) = ix2 b l :=
  funext fun a => Fin.ext (by match a with | ⟨0, _⟩ => rfl | ⟨1, _⟩ => rfl)
theorem idx_v19_v21 (b : Fin 256) (l n : Fin 1024) : idx_main_v19 (idx_main_v21 (ix3 b l n)) = ix2 b n :=
  funext fun a => Fin.ext (by match a with | ⟨0, _⟩ => rfl | ⟨1, _⟩ => rfl)

/-! ## The stages read at an index -/

/-- The score stage at `(b, l)`. -/
theorem v5_apply (x0 : S256x1024.Idx → EReal) (b : Fin 256) (l : Fin 1024) :
    val_main_v5 (F := Ideal) x0 (ix2 b l) = scoreR x0 b l := by
  rw [val_main_v5_apply, val_main_v4_apply, val_main_cst_0_apply, val_main_v3_apply, val_main_v2_apply, val_main_cst_apply,
    val_main_v1_apply, val_main_v0_apply]
  rfl

/-- The label bit stage at `(b, l)`. -/
theorem v7_apply (x1 : S256x1024.Idx → BitVec 32) (b : Fin 256) (l : Fin 1024) :
    val_main_v7 (F := Ideal) x1 (ix2 b l) = lab x1 b l := by
  rw [val_main_v7_apply, val_main_v6_apply, val_main_c_apply]
  rfl

/-- The pair mask stage at `(b, l, n)`. -/
theorem v23_apply (x1 : S256x1024.Idx → BitVec 32) (b : Fin 256) (l n : Fin 1024) :
    val_main_v23 (F := Ideal) x1 (ix3 b l n) = pairMask x1 b l n := by
  rw [val_main_v23_apply, val_main_v22_apply, val_main_v20_apply, val_main_v18_apply, idx_v18_v20, v7_apply,
    val_main_v21_apply, val_main_v19_apply, idx_v19_v21, val_main_v8_apply, v7_apply]
  rfl

/-- The weighted hinge stage at `(b, l, n)`. -/
theorem v24_apply (x0 : S256x1024.Idx → EReal) (x1 : S256x1024.Idx → BitVec 32) (b : Fin 256) (l n : Fin 1024) :
    val_main_v24 (F := Ideal) x0 x1 (ix3 b l n) = hinge x0 b l n * pairMask x1 b l n := by
  rw [val_main_v24_apply, v23_apply, val_main_v17_apply, val_main_v16_apply, val_main_cst_2_apply, val_main_v15_apply,
    val_main_v14_apply, val_main_cst_1_apply, val_main_v13_apply, val_main_v11_apply, val_main_v9_apply, idx_v9_v11, v5_apply,
    val_main_v12_apply, val_main_v10_apply, idx_v10_v12, v5_apply]
  rfl

/-- The pair sum of row `b`: the initial zero plus the double sum of the weighted hinges. -/
theorem v25_apply (x0 : S256x1024.Idx → EReal) (x1 : S256x1024.Idx → BitVec 32) (b : Fin 256) :
    val_main_v25 (F := Ideal) x0 x1 (ix1 b) = zero + ∑ l : Fin 1024, ∑ n : Fin 1024, hinge x0 b l n * pairMask x1 b l n := by
  unfold val_main_v25
  simp only [Host.reduceAdd, Ideal.hostReduceAdd_def]
  unfold Ideal.hostReduceAdd
  rw [sum_filter_drop_pairs]
  simp only [v24_apply]
  rfl

/-- The pair count of row `b`. -/
theorem v26_apply (x1 : S256x1024.Idx → BitVec 32) (b : Fin 256) :
    val_main_v26 (F := Ideal) x1 (ix1 b) = zero + ∑ l : Fin 1024, ∑ n : Fin 1024, pairMask x1 b l n := by
  unfold val_main_v26
  simp only [Host.reduceAdd, Ideal.hostReduceAdd_def]
  unfold Ideal.hostReduceAdd
  rw [sum_filter_drop_pairs]
  simp only [v23_apply]
  rfl

/-- Row `b`'s value. -/
theorem v29_apply (x0 : S256x1024.Idx → EReal) (x1 : S256x1024.Idx → BitVec 32) (b : Fin 256) :
    val_main_v29 (F := Ideal) x0 x1 (ix1 b) = rowR x0 x1 b := by
  rw [val_main_v29_apply, v25_apply, val_main_v28_apply, v26_apply, val_main_v27_apply, val_main_cst_5_apply]
  rfl

/-- A sum over the indices of a rank-one shape is the sum over its coordinate. -/
theorem sum_idx1 {n : Nat} (f : (⟨1, ![n]⟩ : Shape).Idx → EReal) : ∑ j, f j = ∑ b : Fin n, f (ix1 b) :=
  (Fintype.sum_equiv ⟨fun j => j 0, ix1, fun j => (eq_ix1 j).symm, fun _ => rfl⟩ _ _ fun j => by
    exact congrArg f (eq_ix1 j)).trans rfl

/-- The reference's result is the loss in the all-pairs arrangement. -/
theorem v31_eq (x0 : S256x1024.Idx → EReal) (x1 : S256x1024.Idx → BitVec 32) :
    val_main_v31 (F := Ideal) x0 x1 = fun _ => lossR x0 x1 := by
  funext i
  rw [val_main_v31_apply, val_main_v30_apply, val_main_cst_6_apply, val_main_cst_7_apply, sum_idx1]
  simp only [v29_apply]
  rfl

end Cert.ReferenceIdeal.Hand

end
-- ==== Proof.Bridge.lean ====
/-
  The two arrangements of the loss are one function on finite logits.
-/
import proofs.«113133_j32418413150578_2_alg».proof.Proof.Spec
import proofs.«113133_j32418413150578_2_alg».proof.Proof.LibHingePairs

noncomputable section

namespace Cert.HingeSpec

open Idealize.ShloMosaic Idealize.ShloMosaic.ValueIdx Cert.HingePairs
open scoped BigOperators

variable (xr : Sx.Idx → ℝ) (tg : Sx.Idx → BitVec 32)

/-- The real score of entry `(b, l)`: `1 / (1 + e^(-x))`. -/
def pR (b : Fin 256) (l : Fin 1024) : ℝ := (1 + Real.exp (-(xr (ix2 b l))))⁻¹
/-- The label bit of entry `(b, l)` as a real number, 0 or 1. -/
def aR (b : Fin 256) (l : Fin 1024) : ℝ := ((lab tg b l).toNat : ℝ)

theorem pR_nonneg (b : Fin 256) (l : Fin 1024) : 0 ≤ pR xr b l := by unfold pR; positivity
theorem pR_le_one (b : Fin 256) (l : Fin 1024) : pR xr b l ≤ 1 :=
  inv_le_one_of_one_le₀ (le_add_of_nonneg_right (Real.exp_pos _).le)

theorem one_coe : one = ((1 : ℝ) : EReal) := ofBits_one
theorem zero_coe : zero = ((0 : ℝ) : EReal) := ofBits_zero

theorem score_coe (b : Fin 256) (l : Fin 1024) : score (fun i => (xr i : EReal)) b l = (pR xr b l : EReal) :=
  Ideal.logistic_coe (xr (ix2 b l))

theorem scoreR_coe (b : Fin 256) (l : Fin 1024) : scoreR (fun i => (xr i : EReal)) b l = (pR xr b l : EReal) := by
  unfold scoreR
  rw [one_coe, EReal.coe_one]
  exact Ideal.logistic_coe (xr (ix2 b l))

theorem pos_coe (b : Fin 256) (l : Fin 1024) : pos tg b l = (aR tg b l : EReal) := by
  unfold pos aR
  rw [toInt_setWidth_bv1]

theorem pairMask_coe (b : Fin 256) (l n : Fin 1024) : pairMask tg b l n = ((aR tg b l * (1 - aR tg b n) : ℝ) : EReal) := by
  unfold pairMask aR
  rw [toNat_and_not_bv1]

/-- The pair count of a row, both ways. -/
theorem row_den (b : Fin 256) : nPos tg b * nNeg tg b = zero + ∑ l : Fin 1024, ∑ n : Fin 1024, pairMask tg b l n := by
  unfold nPos nNeg
  simp only [pos_coe, pairMask_coe, one_coe, zero_coe]
  simp only [← EReal.coe_sub, ← coe_sum, ← EReal.coe_mul, ← EReal.coe_add]
  rw [zero_add, pair_count]

/-- The pair sum of a row, both ways: the hinge never clips on scores in `[0, 1]`. -/
theorem row_num (b : Fin 256) :
    nPos tg b * nNeg tg b * one - nNeg tg b * sPos (fun i => (xr i : EReal)) tg b + nPos tg b * sNeg (fun i => (xr i : EReal)) tg b
      = zero + ∑ l : Fin 1024, ∑ n : Fin 1024, hinge (fun i => (xr i : EReal)) b l n * pairMask tg b l n := by
  unfold nPos nNeg sPos sNeg hinge
  simp only [score_coe, scoreR_coe, pos_coe, pairMask_coe, one_coe, zero_coe]
  simp only [← EReal.coe_sub, ← coe_max, ← EReal.coe_mul, ← coe_sum, ← EReal.coe_add]
  rw [zero_add, pair_hinge (pR xr b) (aR tg b) (pR_nonneg xr b) (pR_le_one xr b)]

/-- On finite logits the four-sums arrangement and the all-pairs arrangement are the same extended real. -/
theorem lossK_eq_lossR (x : Sx.Idx → EReal) (hfin : ∀ i, ∃ r : ℝ, x i = (r : EReal)) : lossK x tg = lossR x tg := by
  choose xr hx using hfin
  obtain rfl : x = fun i => (xr i : EReal) := funext hx
  unfold lossK lossR
  rw [zero_coe, EReal.coe_zero, zero_add]
  refine congrArg₂ Ideal.div (Finset.sum_congr rfl fun b _ => ?_) rfl
  unfold rowK rowR
  rw [row_num, row_den]

end Cert.HingeSpec

end
-- ==== Proof.Finite.lean ====
/-
  The precondition read back: every logit is a real number.
-/
import proofs.«113133_j32418413150578_2_alg».proof.Pre_finite_inputs
import proofs.«113133_j32418413150578_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Hand

open Cert.Pre_finite_inputs Idealize.ShloMosaic

instance : Subsingleton S_.Idx := ⟨fun a b => funext fun d => d.elim0⟩

/-- The f32 word of +infinity is the top of the extended reals. -/
theorem ofBits_inf : Ideal.ofBits .f32 0x7F800000#32 = ⊤ := by
  simp [Ideal.ofBits, Ideal.ieee]

/-- An extended real whose absolute value is below +infinity is a real number. -/
theorem real_of_abs_lt_top (a : EReal) (h : max a (-a) < ⊤) : ∃ r : ℝ, a = (r : EReal) := by
  induction a using EReal.rec with
  | bot => simp at h
  | top => simp at h
  | coe r => exact ⟨r, rfl⟩

/-- `jnp.all(|x| < inf)` is all ones exactly when it holds of every entry: then every entry is a real number. -/
theorem finite_of_pre [Facts] (x : FVec Ideal S256x1024 .f32) (t : IVec S256x1024 32)
    (h : fn (F := Ideal) x t = fun _ => 1#1) (i : S256x1024.Idx) : ∃ r : ℝ, x i = (r : EReal) := by
  have h0 := congrFun h ValueIdx.ix0
  dsimp only [fn] at h0
  have hi := Host.reduce_andi_all _ _ _ _ _ h0 i
  have hi' : Ideal.cmp .olt (max (x i) (-(x i))) (Ideal.ofBits .f32 0x7F800000#32) = 1#1 := hi
  rw [ofBits_inf] at hi'
  refine real_of_abs_lt_top (x i) ?_
  unfold Ideal.cmp at hi'
  by_contra hne
  simp [hne] at hi'

end Cert.Pre_finite_inputs.Hand

end
-- ==== Proof.lean ====
/-
  A pairwise margin ranking loss on sigmoid scores, computed two ways, agrees on finite logits.

  For logits `x` and integer targets `tg` of shape [256, 1024], let `p = 1 / (1 + e^(-x))` and let `a` be 1 where
  `tg > 0` and 0 elsewhere. The reference forms, for each row, every pair `(l, n)` of entries, takes the hinge
  `max 0 (1 - (p l - p n))`, keeps the pairs with `l` positive and `n` not, and divides their sum by their number
  (at least 1); the result is the mean of the rows' values. The kernel never forms the pairs: per row it takes the four
  sums `∑ a`, `∑ (1 - a)`, `∑ p a`, `∑ p (1 - a)` and combines them as
  `((∑ a)(∑ (1 - a)) - (∑ (1 - a))(∑ p a) + (∑ a)(∑ p (1 - a))) / max ((∑ a)(∑ (1 - a))) 1`.

  The two agree because a finite logit has its score in `[0, 1]`, so `p l - p n ≤ 1` and the hinge never clips: it is
  `1 - p l + p n`, and the weighted double sum separates into products of single sums (LibHingePairs). Finiteness is
  used: it makes every score and every partial sum a real number, where the separation is ring arithmetic.

  The modules: Spec (both arrangements as extended reals), LibHingePairs (the real identities, and reals inside the
  extended reals), Bridge (the two arrangements are equal on finite logits), Finite (the precondition gives finite
  logits), KernelValue and KernelRun (the kernel's stored value and its run read as the four-sums arrangement),
  RefValue (the reference's run read as the all-pairs arrangement).
-/
import proofs.«113133_j32418413150578_2_alg».proof.Defs
import proofs.«113133_j32418413150578_2_alg».proof.Proof.Gen.Kernel
import proofs.«113133_j32418413150578_2_alg».proof.Proof.Gen.Kernel.Skeleton
import proofs.«113133_j32418413150578_2_alg».proof.Proof.Gen.Kernel.Launch
import proofs.«113133_j32418413150578_2_alg».proof.Proof.Gen.Kernel.Points
import proofs.«113133_j32418413150578_2_alg».proof.Proof.Gen.Kernel.Frame
import proofs.«113133_j32418413150578_2_alg».proof.Proof.Gen.KernelIdeal
import proofs.«113133_j32418413150578_2_alg».proof.Proof.Gen.KernelIdeal.Skeleton
import proofs.«113133_j32418413150578_2_alg».proof.Proof.Gen.KernelIdeal.Launch
import proofs.«113133_j32418413150578_2_alg».proof.Proof.Gen.KernelIdeal.Points
import proofs.«113133_j32418413150578_2_alg».proof.Proof.Gen.KernelIdeal.Frame
import proofs.«113133_j32418413150578_2_alg».proof.Proof.Gen.ReferenceIdeal
import proofs.«113133_j32418413150578_2_alg».proof.Proof.Gen.Pre_finite_inputs
import proofs.«113133_j32418413150578_2_alg».proof.Proof.Gen.ReferenceIdeal.Run
import proofs.«113133_j32418413150578_2_alg».proof.Proof.Gen.ReferenceIdeal.Read
import proofs.«113133_j32418413150578_2_alg».proof.Proof.KernelRun
import proofs.«113133_j32418413150578_2_alg».proof.Proof.RefValue
import proofs.«113133_j32418413150578_2_alg».proof.Proof.Bridge
import proofs.«113133_j32418413150578_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both programs end at the loss of the argument arrays: the kernel in the four-sums arrangement, the reference in the
    all-pairs arrangement, equal because the precondition makes every logit finite. -/
theorem algebraic : Cert.algebraic_KernelIdeal_ReferenceIdeal := by
  intro m ρ m' ρ' hpre hagree
  refine ⟨fun c => (fun _ => Cert.KernelIdeal.Hand.loss m c), Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, Cert.ReferenceIdeal.Hand.v31_eq, (hagree c).1, (hagree c).2]
  exact funext fun _ => (Cert.HingeSpec.lossK_eq_lossR _ _
    (fun i => Cert.Pre_finite_inputs.Hand.finite_of_pre _ _ (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
